-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x256 : Shape := ⟨2, ![4096, 256]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_

variable [Facts]

def fn {F : FTy → Type} [FloatOps F] (main_arg0 : FVec F S4096x4096 .f32) (main_arg1 : FVec F S4096x256 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  main_v8
-- ==== Kernel.lean ====
abbrev S4096x4096 : Shape := ⟨2, ![4096, 4096]⟩
abbrev S4096x256 : Shape := ⟨2, ![4096, 256]⟩
abbrev S512x512 : Shape := ⟨2, ![512, 512]⟩
abbrev S512x256 : Shape := ⟨2, ![512, 256]⟩

abbrev nBuf : Space → Nat
  | .hbm => 3
  | .vmem => 5
  | .smem => 0
  | _ => 0

abbrev bufTy : (tb : Table) → Fin (tcTables nBuf tb) → BufTy
  | .hbm, ⟨0, _⟩ => ⟨S4096x4096, .f32⟩
  | .hbm, ⟨1, _⟩ => ⟨S4096x256, .f32⟩
  | .hbm, ⟨2, _⟩ => ⟨S4096x256, .f32⟩
  | .local _ .vmem, ⟨0, _⟩ => ⟨S512x512, .f32⟩
  | .local _ .vmem, ⟨1, _⟩ => ⟨S512x512, .f32⟩
  | .local _ .vmem, ⟨2, _⟩ => ⟨S512x256, .f32⟩
  | .local _ .vmem, ⟨3, _⟩ => ⟨S512x256, .f32⟩
  | .local _ .vmem, ⟨4, _⟩ => ⟨S4096x256, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg0 : BitVec 32 := BitVec.ofNat 32 (i 0).val
  let c0_i32 : BitVec 32 := 0#32
  let v4 : BitVec 1 := Scalar.cmpi .eq arg0 c0_i32
  let v5 : BitVec 32 := Scalar.extui v4
  let c0_i32_3 : BitVec 32 := 0#32
  let v6 : BitVec 1 := Scalar.cmpi .ne v5 c0_i32_3
  v6

def k0_off1 (i : grid0.Coords) : Fin 2 → Nat :=
  let arg1 : BitVec 32 := BitVec.ofNat 32 (i 1).val
  let c512_i32 : BitVec 32 := 512#32
  let v3 : BitVec 32 := Scalar.muli arg1 c512_i32
  let v10 : Index := Scalar.indexCast v3
  let c0_6 : Index := 0#32
  ![v10.toNat, 0]
def k0_cond2 (i : grid0.Coords) : BitVec 1 :=
  let arg0 : BitVec 32 := BitVec.ofNat 32 (i 0).val
  let c0_i32_4 : BitVec 32 := 0#32
  let v7 : BitVec 1 := Scalar.cmpi .sgt arg0 c0_i32_4
  let v8 : BitVec 32 := Scalar.extui v7
  let c0_i32_5 : BitVec 32 := 0#32
  let v9 : BitVec 1 := Scalar.cmpi .ne v8 c0_i32_5
  v9

def k0_off2 (i : grid0.Coords) : Fin 2 → Nat :=
  let arg1 : BitVec 32 := BitVec.ofNat 32 (i 1).val
  let c512_i32 : BitVec 32 := 512#32
  let v3 : BitVec 32 := Scalar.muli arg1 c512_i32
  let v10 : Index := Scalar.indexCast v3
  let c0_6 : Index := 0#32
  ![v10.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S4096x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

class Facts₀ : Prop where
  inb_S512x512_S512x512_0_0 : ∀ a, (![0, 0] : Fin 2 → Nat) a + S512x512.size a ≤ S512x512.size a
  h_S512x512 : 0 < S512x512.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  dot_S512x512_S512x256_S512x256_1_0_0_1_n_n_wf : DotDims.WF S512x512 S512x256 S512x256 [1] [0] [0] [1] [] []
  hrank0 : 0 < grid0.rank
  k0_off1_inb : ∀ i : grid0.Coords, ∀ (k0_h1 : k0_cond1 i = 1#1), ∀ a, (k0_off1 i) a + S512x256.size a ≤ S4096x256.size a
  k0_off2_inb : ∀ i : grid0.Coords, ∀ (k0_h2 : k0_cond2 i = 1#1), ∀ a, (k0_off2 i) a + S512x256.size a ≤ S4096x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x4096.size a
  hwx0_0 : ∀ i : grid0.Coords, EltTy.bits .f32 = 32 ∨ (Rect.block (s := S4096x4096) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S4096x256.size a
  hwx0_1 : ∀ i : grid0.Coords, EltTy.bits .f32 = 32 ∨ (Rect.block (s := S4096x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x256.size a ≤ S4096x256.size a
  hwx0_2 : ∀ i : grid0.Coords, EltTy.bits .f32 = 32 ∨ (Rect.block (s := S4096x256) S4096x256.size (cc0_transform_2 i) (hinb0_2 i)).WholeWords (EltTy.packing .f32)

variable [Facts₀]

def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4096x256.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond2 i == 1#1) | ⟨_ + 3, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096x256 : Shape := ⟨2, ![4096, 256]⟩

abbrev nBuf : Space → Nat
  | .hbm => 3
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x256, .f32⟩
  | .hbm, ⟨2, _⟩ => ⟨S4096x256, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S4096x4096_S4096x256_S4096x256_1_0_0_1_n_n_wf : DotDims.WF S4096x4096 S4096x256 S4096x256 [1] [0] [0] [1] [] []

variable [Facts₀]

def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf

class Facts : Prop extends Facts₀ where

variable [Facts]
-- ==== Proof.WordPoint.lean ====
import proofs.«119019_g29180007809569_cont_9to1_395_21_alg».proof.Proof.Gen.Kernel.Frame
import proofs.«119019_g29180007809569_cont_9to1_395_21_alg».proof.Proof.Gen.Kernel.Skeleton
import Idealize.ShloMosaic.Lib.WritesUnit
import Idealize.ShloMosaic.Lib.Pipeline.Value

set_option maxRecDepth 16384

noncomputable section

/-!
  One grid point of the kernel, on any whole staging buffers.  The point multiplies a block of the left matrix by a
  block of the right matrix and puts the product into a band of 512 rows of the resident output buffer: at a point of
  the first sweep the band is overwritten by the product, at a later point the product is added to what the band held.
  Every row outside the band is left as it was.
-/

namespace Cert.Kernel.Accum

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel.Gen

variable {F : FTy → Type} [FloatOps F]

local notation "𝕄" => MT nD τ sig Unit (Elt F) ℕ (UR sig nD τ) ℕ

/-- `X` is `Y` with the band of 512 rows starting at row `o` replaced by the 512-row array `P`. -/
def RowsPut (o : Nat) (P : Vec F S512x256 .f32) (Y X : Vec F S4096x256 .f32) : Prop :=
  (∀ (y : S4096x256.Idx) (x : S512x256.Idx), (y 0).val = o + (x 0).val → (y 1).val = (x 1).val → X y = P x)
    ∧ ∀ y : S4096x256.Idx, ((y 0).val < o ∨ o + 512 ≤ (y 0).val) → X y = Y y

/-- `v` is the band of 512 rows of `Y` starting at row `o`. -/
def RowsOf (o : Nat) (Y : Vec F S4096x256 .f32) (v : Vec F S512x256 .f32) : Prop :=
  ∀ (y : S4096x256.Idx) (x : S512x256.Idx), (y 0).val = o + (x 0).val → (y 1).val = (x 1).val → v x = Y y

theorem zero2 : (![0, 0] : Fin 2 → Nat) = fun _ => 0 := by
  funext a; match a with | ⟨0, _⟩ => rfl | ⟨1, _⟩ => rfl

set_option maxHeartbeats 1000000 in
/-- A point of the first sweep: the band is overwritten by the product of the two input blocks. -/
theorem run_first (c : Dev nD) (i : grid0.Coords) (arg2 : Memref sig .tc .vmem S512x512 .f32) (harg2 : arg2.IsWhole)
    (arg3 : Memref sig .tc .vmem S512x256 .f32) (harg3 : arg3.IsWhole) (arg4 : Memref sig .tc .vmem S4096x256 .f32) (harg4 : arg4.IsWhole)
    (hc0 : k0_cond1 i = 1#1) (hc1 : ¬ k0_cond2 i = 1#1) (o : Nat) (ho : k0_off1 i = ![o, 0])
    (x0 : Vec F S512x512 .f32) (x1 : Vec F S512x256 .f32) (y : Vec F S4096x256 .f32) :
      ∀ (E : Set ℕ) (K : PUnit → sProp 𝕄),
        iprop(owns (c : Thread nD τ) arg2 fullShare x0 ∗ owns (c : Thread nD τ) arg3 fullShare x1 ∗ owns (c : Thread nD τ) arg4 fullShare y
            ∗ (iprop(owns (c : Thread nD τ) arg2 fullShare x0 ∗ owns (c : Thread nD τ) arg3 fullShare x1
                ∗ (∃ X, ⌜RowsPut o (k0_pay1 x0 x1) y X⌝ ∗ owns (c : Thread nD τ) arg4 fullShare X)) -∗ K ⟨⟩))
          ⊢ wp frame (wpE (defs₀ (F := F)) Variants.none c none) E (cc0__body i arg2 harg2 arg3 harg3 arg4 harg4) K := by
    intro E K
    simp only [cc0__body_eq_skeleton]; unfold cc0__body_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _
    isplitr; swap
    · iexists _; isplitr; swap; · iexact H2
      ipureintro; rfl
    ipureintro
    have e0 : View.readAt (Elt F) arg2.view (Rect.unit (s := S512x512) ![0, 0] S512x512.size inb_S512x512_S512x512_0_0).toLoadRect (harg2.unread x0) = x0 := by
      rw [View.readAt_eq_ld, harg2.read_unread]; exact View.ld_unit_zero zero2 _ _
    have e1 : View.readAt (Elt F) arg3.view (Rect.unit (s := S512x256) ![0, 0] S512x256.size inb_S512x256_S512x256_0_0).toLoadRect (harg3.unread x1) = x1 := by
      rw [View.readAt_eq_ld, harg3.read_unread]; exact View.ld_unit_zero zero2 _ _
    rw [e0, e1]
    refine ⟨fun y' x h0 h1 => ?_, fun y' h => ?_⟩
    · exact View.read_writes_cons_rows_of_mem arg4.view _ (k0_off1_inb i hc0) _ [] y' x ho h0 h1
    · refine (View.read_writes_cons_rows_of_not_mem arg4.view _ (k0_off1_inb i hc0) _ [] y' ho rfl h).trans ?_
      rw [View.writes_nil, harg4.read_unread]

set_option maxHeartbeats 1000000 in
/-- A later point: the product of the two input blocks is added to what the band held. -/
theorem run_later (c : Dev nD) (i : grid0.Coords) (arg2 : Memref sig .tc .vmem S512x512 .f32) (harg2 : arg2.IsWhole)
    (arg3 : Memref sig .tc .vmem S512x256 .f32) (harg3 : arg3.IsWhole) (arg4 : Memref sig .tc .vmem S4096x256 .f32) (harg4 : arg4.IsWhole)
    (hc0 : ¬ k0_cond1 i = 1#1) (hc1 : k0_cond2 i = 1#1) (o : Nat) (ho : k0_off2 i = ![o, 0])
    (x0 : Vec F S512x512 .f32) (x1 : Vec F S512x256 .f32) (y : Vec F S4096x256 .f32) :
      ∀ (E : Set ℕ) (K : PUnit → sProp 𝕄),
        iprop(owns (c : Thread nD τ) arg2 fullShare x0 ∗ owns (c : Thread nD τ) arg3 fullShare x1 ∗ owns (c : Thread nD τ) arg4 fullShare y
            ∗ (iprop(owns (c : Thread nD τ) arg2 fullShare x0 ∗ owns (c : Thread nD τ) arg3 fullShare x1
                ∗ (∃ X, ⌜∃ v, RowsOf o y v ∧ RowsPut o (k0_pay2 x0 x1 v) y X⌝ ∗ owns (c : Thread nD τ) arg4 fullShare X)) -∗ K ⟨⟩))
          ⊢ wp frame (wpE (defs₀ (F := F)) Variants.none c none) E (cc0__body i arg2 harg2 arg3 harg3 arg4 harg4) K := by
    intro E K
    simp only [cc0__body_eq_skeleton]; unfold cc0__body_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _
    isplitr; swap
    · iexists _; isplitr; swap; · iexact H2
      ipureintro; rfl
    ipureintro
    have e0 : View.readAt (Elt F) arg2.view (Rect.unit (s := S512x512) ![0, 0] S512x512.size inb_S512x512_S512x512_0_0).toLoadRect (harg2.unread x0) = x0 := by
      rw [View.readAt_eq_ld, harg2.read_unread]; exact View.ld_unit_zero zero2 _ _
    have e1 : View.readAt (Elt F) arg3.view (Rect.unit (s := S512x256) ![0, 0] S512x256.size inb_S512x256_S512x256_0_0).toLoadRect (harg3.unread x1) = x1 := by
      rw [View.readAt_eq_ld, harg3.read_unread]; exact View.ld_unit_zero zero2 _ _
    rw [e0, e1]
    refine ⟨View.readAt (Elt F) arg4.view (Rect.unit (s := S4096x256) (k0_off2 i) S512x256.size (k0_off2_inb i hc1)).toLoadRect (harg4.unread y), ?_, ?_, ?_⟩
    · intro y' x h0 h1
      rw [View.readAt_eq_ld, harg4.read_unread]
      refine congrArg y (funext fun a => Fin.ext ?_)
      match a with
      | ⟨0, _⟩ =>
        show (k0_off2 i) 0 + 1 * (x 0).val = (y' 0).val
        rw [ho, h0, Nat.one_mul]; rfl
      | ⟨1, _⟩ =>
        show (k0_off2 i) 1 + 1 * (x 1).val = (y' 1).val
        rw [ho, h1, Nat.one_mul]; exact Nat.zero_add _
    · intro y' x h0 h1
      exact View.read_writes_cons_rows_of_mem arg4.view _ (k0_off2_inb i hc1) _ [] y' x ho h0 h1
    · intro y' h
      refine (View.read_writes_cons_rows_of_not_mem arg4.view _ (k0_off2_inb i hc1) _ [] y' ho rfl h).trans ?_
      rw [View.writes_nil, harg4.read_unread]

end Cert.Kernel.Accum

end
-- ==== Proof.WordRun.lean ====
import proofs.«119019_g29180007809569_cont_9to1_395_21_alg».proof.Proof.WordPoint

set_option maxRecDepth 16384

noncomputable section

/-!
  The kernel's run over its grid of 8 × 8 points.  The output window is the whole result array, resident in one
  buffer for the whole run and written back once, after the last point; the buffer is never filled as a whole, so
  what a point leaves in it is stated RELATIVE to what the point found: the band of the point's 512 rows is
  overwritten (first sweep) or added to (later sweeps), the other rows are kept.  The two input windows are read and
  left as found.  From the body's triple at every point the pipeline's run follows, and with it the frame: the
  two argument arrays end as they began.
-/

namespace Cert.Kernel.Accum

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Point `t` is point `(t / 8, t % 8)` of the grid; its band starts at row `512 · (t % 8)`. -/
theorem off1_eq : ∀ t : Fin cfg0.N, k0_off1 (grid0.coords t) = ![512 * (t.val % 8), 0] :=
  (by decide +kernel : ∀ t : Fin grid0.N, k0_off1 (grid0.coords t) = ![512 * (t.val % 8), 0])
theorem off2_eq : ∀ t : Fin cfg0.N, k0_off2 (grid0.coords t) = ![512 * (t.val % 8), 0] :=
  (by decide +kernel : ∀ t : Fin grid0.N, k0_off2 (grid0.coords t) = ![512 * (t.val % 8), 0])
/-- The first sweep is the first eight points. -/
theorem hcond1 : ∀ t : Fin cfg0.N, k0_cond1 (grid0.coords t) = 1#1 ↔ t.val < 8 :=
  (by decide +kernel : ∀ t : Fin grid0.N, k0_cond1 (grid0.coords t) = 1#1 ↔ t.val < 8)
theorem hcond2 : ∀ t : Fin cfg0.N, k0_cond2 (grid0.coords t) = 1#1 ↔ 8 ≤ t.val :=
  (by decide +kernel : ∀ t : Fin grid0.N, k0_cond2 (grid0.coords t) = 1#1 ↔ 8 ≤ t.val)

/-- What point `t` makes of the output buffer: `X` from `Y`. -/
def Step (c : Dev nD) (t : Fin cfg0.N) (Y X : Vec F S4096x256 .f32) : Prop :=
  (t.val < 8 → RowsPut (512 * (t.val % 8)) (k0_pay1 (iblk m c 0 t) (iblk m c 1 t)) Y X)
    ∧ (8 ≤ t.val → ∃ v, RowsOf (512 * (t.val % 8)) Y v
        ∧ RowsPut (512 * (t.val % 8)) (k0_pay2 (iblk m c 0 t) (iblk m c 1 t) v) Y X)

/-- The proof data: the arrays as launched; the inputs' buffers left as found, the output buffer stepped. -/
def rdat (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => Step m c t Y X
  Φ _ := Pipeline.ΦA spec0 c
  q _ := fullShare
  owed _ := 0

/-- An input's buffer holds the point's block of its array, fetched at this point or kept from an earlier one. -/
theorem finds0 (c : Dev nD) (t : Fin cfg0.N) (Y) (h : (rdat m c).Finds 0 t Y) : Y = iblk m c 0 t := by
  obtain ⟨d, hd⟩ := (rdat m c).finds_in_eq_fetched 0 rfl (fun _ _ _ => rfl) (fun _ _ _ h => h) t Y h
  rw [hd]; unfold RDat.fetched RDat.blockOf iblk; rfl
theorem finds1 (c : Dev nD) (t : Fin cfg0.N) (Y) (h : (rdat m c).Finds 1 t Y) : Y = iblk m c 1 t := by
  obtain ⟨d, hd⟩ := (rdat m c).finds_in_eq_fetched 1 rfl (fun _ _ _ => rfl) (fun _ _ _ h => h) t Y h
  rw [hd]; unfold RDat.fetched RDat.blockOf iblk; rfl

set_option maxHeartbeats 800000 in
/-- The body at any point, on the buffers the pipeline hands it. -/
theorem sound_body (c : Dev nD) (t : Fin cfg0.N) (Y : (w : Fin cfg0.W) → (cfg0.win w).block.Idx → Elt F (cfg0.win w).elt)
    (h0 : Y 0 = iblk m c 0 t) (h1 : Y 1 = iblk m c 1 t) :
    iprop((rdat m c).Φ t.castSucc ∗ (rdat m c).owesAt () t.castSucc
        ∗ owns (c : Thread nD τ) (st0_0 t) fullShare (Y 0) ∗ owns (c : Thread nD τ) (st0_1 t) fullShare (Y 1)
        ∗ owns (c : Thread nD τ) (st0_2 t) fullShare (Y 2))
      ⊢ wp frame (wpE (defs₀ (F := F)) Variants.none c none) Set.univ (bodyAt0 t) (fun _ =>
          iprop((rdat m c).Φ t.succ ∗ (rdat m c).owesAt () t.succ
            ∗ (∃ X, ⌜(rdat m c).after 0 t (Y 0) X⌝ ∗ owns (c : Thread nD τ) (st0_0 t) fullShare X)
            ∗ (∃ X, ⌜(rdat m c).after 1 t (Y 1) X⌝ ∗ owns (c : Thread nD τ) (st0_1 t) fullShare X)
            ∗ (∃ X, ⌜(rdat m c).after 2 t (Y 2) X⌝ ∗ owns (c : Thread nD τ) (st0_2 t) fullShare X))) := by
  rw [show (rdat m c).Φ t.succ = (rdat m c).Φ t.castSucc from rfl,
    show (rdat m c).owesAt () t.succ = (rdat m c).owesAt () t.castSucc from rfl]
  unfold bodyAt0
  by_cases h : t.val < 8
  · iintro ⟨HΦ, Ho, H0, H1, H2⟩
    iapply ((run_first c (grid0.coords t) _ _ _ _ _ _ ((hcond1 t).mpr h) (fun h' => absurd ((hcond2 t).mp h') (by omega))
      (512 * (t.val % 8)) (off1_eq t) (Y 0) (Y 1) (Y 2)) Set.univ _)
    isplitl [H0]; · iexact H0
    isplitl [H1]; · iexact H1
    isplitl [H2]; · iexact H2
    iintro ⟨H0, H1, ⟨%X, %hX, H2⟩⟩
    isplitl [HΦ]; · iexact HΦ
    isplitl [Ho]; · iexact Ho
    isplitl [H0]
    · iexists _; isplitr; · ipureintro; exact rfl
      iexact H0
    isplitl [H1]
    · iexists _; isplitr; · ipureintro; exact rfl
      iexact H1
    iexists X; isplitr; swap; · iexact H2
    ipureintro
    show Step m c t (Y 2) X
    exact ⟨fun _ => by rw [← h0, ← h1]; exact hX, fun h' => absurd h' (by omega)⟩
  · iintro ⟨HΦ, Ho, H0, H1, H2⟩
    iapply ((run_later c (grid0.coords t) _ _ _ _ _ _ (fun h' => h ((hcond1 t).mp h')) ((hcond2 t).mpr (by omega))
      (512 * (t.val % 8)) (off2_eq t) (Y 0) (Y 1) (Y 2)) Set.univ _)
    isplitl [H0]; · iexact H0
    isplitl [H1]; · iexact H1
    isplitl [H2]; · iexact H2
    iintro ⟨H0, H1, ⟨%X, %hX, H2⟩⟩
    isplitl [HΦ]; · iexact HΦ
    isplitl [Ho]; · iexact Ho
    isplitl [H0]
    · iexists _; isplitr; · ipureintro; exact rfl
      iexact H0
    isplitl [H1]
    · iexists _; isplitr; · ipureintro; exact rfl
      iexact H1
    iexists X; isplitr; swap; · iexact H2
    ipureintro
    show Step m c t (Y 2) X
    exact ⟨fun h' => absurd h' h, fun _ => by rw [← h0, ← h1]; exact hX⟩

/-- The pipeline's body obligation, at every point. -/
theorem body_obligation (c : Dev nD) : (rdat m c).BodyObligation (defs₀ (F := F)) Variants.none () Set.univ := fun t Y hY => by
  rw [bigSep_W0, bigSep_W0]
  exact sound_body m c t Y (finds0 m c t _ (hY 0)) (finds1 m c t _ (hY 1))

set_option backward.isDefEq.respectTransparency.types false in
/-- The run: every weakly fair execution of @main terminates; each array of the pipeline ends at contents the
    relation admits after the one write-back, every other buffer as launched. -/
theorem run_main : θ_run defs (onTc (τ := τ) (main (F := F))) (s₀ m ρ) (Pipeline.RDat.FramePost (cfgs 0) (fun c => rdat m c) (V m)) :=
  Pipeline.RDat.θ_run_frame cfgs (0 : Fin 1) launch0 defs₀ Variants.none (fun c => rdat m c) m ρ main
    (hbody := fun c => body_obligation m c) (hshare := fun c => (rdat m c).share_full fun _ => rfl)
    (howed := fun _ _ => rfl) (V := V m) (hmain := hmain m Variants.none) (hA := fun _ _ => rfl) (hΦ := fun _ _ => rfl)

/-- The frame: an input window's array is never written back, so the two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨Eq.mp (congrFun ((rdat m c).ArrAt_in 0 rfl _) _) ((h c).1 0), Eq.mp (congrFun ((rdat m c).ArrAt_in 1 rfl _) _) ((h c).1 1)⟩)
    (run_main m ρ)

end Cert.Kernel.Accum

end
-- ==== Proof.IdealPoint.lean ====
import proofs.«119019_g29180007809569_cont_9to1_395_21_alg».proof.Proof.Gen.KernelIdeal.Frame
import proofs.«119019_g29180007809569_cont_9to1_395_21_alg».proof.Proof.Gen.KernelIdeal.Skeleton
import Idealize.ShloMosaic.Lib.WritesUnit
import Idealize.ShloMosaic.Lib.Pipeline.Value

set_option maxRecDepth 16384

noncomputable section

/-!
  One grid point of the kernel, on any whole staging buffers.  The point multiplies a block of the left matrix by a
  block of the right matrix and puts the product into a band of 512 rows of the resident output buffer: at a point of
  the first sweep the band is overwritten by the product, at a later point the product is added to what the band held.
  Every row outside the band is left as it was.
-/

namespace Cert.KernelIdeal.Accum

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal.Gen

variable {F : FTy → Type} [FloatOps F]

local notation "𝕄" => MT nD τ sig Unit (Elt F) ℕ (UR sig nD τ) ℕ

/-- `X` is `Y` with the band of 512 rows starting at row `o` replaced by the 512-row array `P`. -/
def RowsPut (o : Nat) (P : Vec F S512x256 .f32) (Y X : Vec F S4096x256 .f32) : Prop :=
  (∀ (y : S4096x256.Idx) (x : S512x256.Idx), (y 0).val = o + (x 0).val → (y 1).val = (x 1).val → X y = P x)
    ∧ ∀ y : S4096x256.Idx, ((y 0).val < o ∨ o + 512 ≤ (y 0).val) → X y = Y y

/-- `v` is the band of 512 rows of `Y` starting at row `o`. -/
def RowsOf (o : Nat) (Y : Vec F S4096x256 .f32) (v : Vec F S512x256 .f32) : Prop :=
  ∀ (y : S4096x256.Idx) (x : S512x256.Idx), (y 0).val = o + (x 0).val → (y 1).val = (x 1).val → v x = Y y

theorem zero2 : (![0, 0] : Fin 2 → Nat) = fun _ => 0 := by
  funext a; match a with | ⟨0, _⟩ => rfl | ⟨1, _⟩ => rfl

set_option maxHeartbeats 1000000 in
/-- A point of the first sweep: the band is overwritten by the product of the two input blocks. -/
theorem run_first (c : Dev nD) (i : grid0.Coords) (arg2 : Memref sig .tc .vmem S512x512 .f32) (harg2 : arg2.IsWhole)
    (arg3 : Memref sig .tc .vmem S512x256 .f32) (harg3 : arg3.IsWhole) (arg4 : Memref sig .tc .vmem S4096x256 .f32) (harg4 : arg4.IsWhole)
    (hc0 : k0_cond1 i = 1#1) (hc1 : ¬ k0_cond2 i = 1#1) (o : Nat) (ho : k0_off1 i = ![o, 0])
    (x0 : Vec F S512x512 .f32) (x1 : Vec F S512x256 .f32) (y : Vec F S4096x256 .f32) :
      ∀ (E : Set ℕ) (K : PUnit → sProp 𝕄),
        iprop(owns (c : Thread nD τ) arg2 fullShare x0 ∗ owns (c : Thread nD τ) arg3 fullShare x1 ∗ owns (c : Thread nD τ) arg4 fullShare y
            ∗ (iprop(owns (c : Thread nD τ) arg2 fullShare x0 ∗ owns (c : Thread nD τ) arg3 fullShare x1
                ∗ (∃ X, ⌜RowsPut o (k0_pay1 x0 x1) y X⌝ ∗ owns (c : Thread nD τ) arg4 fullShare X)) -∗ K ⟨⟩))
          ⊢ wp frame (wpE (defs₀ (F := F)) Variants.none c none) E (cc0__body i arg2 harg2 arg3 harg3 arg4 harg4) K := by
    intro E K
    simp only [cc0__body_eq_skeleton]; unfold cc0__body_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _
    isplitr; swap
    · iexists _; isplitr; swap; · iexact H2
      ipureintro; rfl
    ipureintro
    have e0 : View.readAt (Elt F) arg2.view (Rect.unit (s := S512x512) ![0, 0] S512x512.size inb_S512x512_S512x512_0_0).toLoadRect (harg2.unread x0) = x0 := by
      rw [View.readAt_eq_ld, harg2.read_unread]; exact View.ld_unit_zero zero2 _ _
    have e1 : View.readAt (Elt F) arg3.view (Rect.unit (s := S512x256) ![0, 0] S512x256.size inb_S512x256_S512x256_0_0).toLoadRect (harg3.unread x1) = x1 := by
      rw [View.readAt_eq_ld, harg3.read_unread]; exact View.ld_unit_zero zero2 _ _
    rw [e0, e1]
    refine ⟨fun y' x h0 h1 => ?_, fun y' h => ?_⟩
    · exact View.read_writes_cons_rows_of_mem arg4.view _ (k0_off1_inb i hc0) _ [] y' x ho h0 h1
    · refine (View.read_writes_cons_rows_of_not_mem arg4.view _ (k0_off1_inb i hc0) _ [] y' ho rfl h).trans ?_
      rw [View.writes_nil, harg4.read_unread]

set_option maxHeartbeats 1000000 in
/-- A later point: the product of the two input blocks is added to what the band held. -/
theorem run_later (c : Dev nD) (i : grid0.Coords) (arg2 : Memref sig .tc .vmem S512x512 .f32) (harg2 : arg2.IsWhole)
    (arg3 : Memref sig .tc .vmem S512x256 .f32) (harg3 : arg3.IsWhole) (arg4 : Memref sig .tc .vmem S4096x256 .f32) (harg4 : arg4.IsWhole)
    (hc0 : ¬ k0_cond1 i = 1#1) (hc1 : k0_cond2 i = 1#1) (o : Nat) (ho : k0_off2 i = ![o, 0])
    (x0 : Vec F S512x512 .f32) (x1 : Vec F S512x256 .f32) (y : Vec F S4096x256 .f32) :
      ∀ (E : Set ℕ) (K : PUnit → sProp 𝕄),
        iprop(owns (c : Thread nD τ) arg2 fullShare x0 ∗ owns (c : Thread nD τ) arg3 fullShare x1 ∗ owns (c : Thread nD τ) arg4 fullShare y
            ∗ (iprop(owns (c : Thread nD τ) arg2 fullShare x0 ∗ owns (c : Thread nD τ) arg3 fullShare x1
                ∗ (∃ X, ⌜∃ v, RowsOf o y v ∧ RowsPut o (k0_pay2 x0 x1 v) y X⌝ ∗ owns (c : Thread nD τ) arg4 fullShare X)) -∗ K ⟨⟩))
          ⊢ wp frame (wpE (defs₀ (F := F)) Variants.none c none) E (cc0__body i arg2 harg2 arg3 harg3 arg4 harg4) K := by
    intro E K
    simp only [cc0__body_eq_skeleton]; unfold cc0__body_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _
    isplitr; swap
    · iexists _; isplitr; swap; · iexact H2
      ipureintro; rfl
    ipureintro
    have e0 : View.readAt (Elt F) arg2.view (Rect.unit (s := S512x512) ![0, 0] S512x512.size inb_S512x512_S512x512_0_0).toLoadRect (harg2.unread x0) = x0 := by
      rw [View.readAt_eq_ld, harg2.read_unread]; exact View.ld_unit_zero zero2 _ _
    have e1 : View.readAt (Elt F) arg3.view (Rect.unit (s := S512x256) ![0, 0] S512x256.size inb_S512x256_S512x256_0_0).toLoadRect (harg3.unread x1) = x1 := by
      rw [View.readAt_eq_ld, harg3.read_unread]; exact View.ld_unit_zero zero2 _ _
    rw [e0, e1]
    refine ⟨View.readAt (Elt F) arg4.view (Rect.unit (s := S4096x256) (k0_off2 i) S512x256.size (k0_off2_inb i hc1)).toLoadRect (harg4.unread y), ?_, ?_, ?_⟩
    · intro y' x h0 h1
      rw [View.readAt_eq_ld, harg4.read_unread]
      refine congrArg y (funext fun a => Fin.ext ?_)
      match a with
      | ⟨0, _⟩ =>
        show (k0_off2 i) 0 + 1 * (x 0).val = (y' 0).val
        rw [ho, h0, Nat.one_mul]; rfl
      | ⟨1, _⟩ =>
        show (k0_off2 i) 1 + 1 * (x 1).val = (y' 1).val
        rw [ho, h1, Nat.one_mul]; exact Nat.zero_add _
    · intro y' x h0 h1
      exact View.read_writes_cons_rows_of_mem arg4.view _ (k0_off2_inb i hc1) _ [] y' x ho h0 h1
    · intro y' h
      refine (View.read_writes_cons_rows_of_not_mem arg4.view _ (k0_off2_inb i hc1) _ [] y' ho rfl h).trans ?_
      rw [View.writes_nil, harg4.read_unread]

end Cert.KernelIdeal.Accum

end
-- ==== Proof.IdealRun.lean ====
import proofs.«119019_g29180007809569_cont_9to1_395_21_alg».proof.Proof.IdealPoint

set_option maxRecDepth 16384

noncomputable section

/-!
  The kernel's run over its grid of 8 × 8 points.  The output window is the whole result array, resident in one
  buffer for the whole run and written back once, after the last point; the buffer is never filled as a whole, so
  what a point leaves in it is stated RELATIVE to what the point found: the band of the point's 512 rows is
  overwritten (first sweep) or added to (later sweeps), the other rows are kept.  The two input windows are read and
  left as found.  From the body's triple at every point the pipeline's run follows, and with it the frame: the
  two argument arrays end as they began.
-/

namespace Cert.KernelIdeal.Accum

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Point `t` is point `(t / 8, t % 8)` of the grid; its band starts at row `512 · (t % 8)`. -/
theorem off1_eq : ∀ t : Fin cfg0.N, k0_off1 (grid0.coords t) = ![512 * (t.val % 8), 0] :=
  (by decide +kernel : ∀ t : Fin grid0.N, k0_off1 (grid0.coords t) = ![512 * (t.val % 8), 0])
theorem off2_eq : ∀ t : Fin cfg0.N, k0_off2 (grid0.coords t) = ![512 * (t.val % 8), 0] :=
  (by decide +kernel : ∀ t : Fin grid0.N, k0_off2 (grid0.coords t) = ![512 * (t.val % 8), 0])
/-- The first sweep is the first eight points. -/
theorem hcond1 : ∀ t : Fin cfg0.N, k0_cond1 (grid0.coords t) = 1#1 ↔ t.val < 8 :=
  (by decide +kernel : ∀ t : Fin grid0.N, k0_cond1 (grid0.coords t) = 1#1 ↔ t.val < 8)
theorem hcond2 : ∀ t : Fin cfg0.N, k0_cond2 (grid0.coords t) = 1#1 ↔ 8 ≤ t.val :=
  (by decide +kernel : ∀ t : Fin grid0.N, k0_cond2 (grid0.coords t) = 1#1 ↔ 8 ≤ t.val)

/-- What point `t` makes of the output buffer: `X` from `Y`. -/
def Step (c : Dev nD) (t : Fin cfg0.N) (Y X : Vec F S4096x256 .f32) : Prop :=
  (t.val < 8 → RowsPut (512 * (t.val % 8)) (k0_pay1 (iblk m c 0 t) (iblk m c 1 t)) Y X)
    ∧ (8 ≤ t.val → ∃ v, RowsOf (512 * (t.val % 8)) Y v
        ∧ RowsPut (512 * (t.val % 8)) (k0_pay2 (iblk m c 0 t) (iblk m c 1 t) v) Y X)

/-- The proof data: the arrays as launched; the inputs' buffers left as found, the output buffer stepped. -/
def rdat (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => Step m c t Y X
  Φ _ := Pipeline.ΦA spec0 c
  q _ := fullShare
  owed _ := 0

/-- An input's buffer holds the point's block of its array, fetched at this point or kept from an earlier one. -/
theorem finds0 (c : Dev nD) (t : Fin cfg0.N) (Y) (h : (rdat m c).Finds 0 t Y) : Y = iblk m c 0 t := by
  obtain ⟨d, hd⟩ := (rdat m c).finds_in_eq_fetched 0 rfl (fun _ _ _ => rfl) (fun _ _ _ h => h) t Y h
  rw [hd]; unfold RDat.fetched RDat.blockOf iblk; rfl
theorem finds1 (c : Dev nD) (t : Fin cfg0.N) (Y) (h : (rdat m c).Finds 1 t Y) : Y = iblk m c 1 t := by
  obtain ⟨d, hd⟩ := (rdat m c).finds_in_eq_fetched 1 rfl (fun _ _ _ => rfl) (fun _ _ _ h => h) t Y h
  rw [hd]; unfold RDat.fetched RDat.blockOf iblk; rfl

set_option maxHeartbeats 800000 in
/-- The body at any point, on the buffers the pipeline hands it. -/
theorem sound_body (c : Dev nD) (t : Fin cfg0.N) (Y : (w : Fin cfg0.W) → (cfg0.win w).block.Idx → Elt F (cfg0.win w).elt)
    (h0 : Y 0 = iblk m c 0 t) (h1 : Y 1 = iblk m c 1 t) :
    iprop((rdat m c).Φ t.castSucc ∗ (rdat m c).owesAt () t.castSucc
        ∗ owns (c : Thread nD τ) (st0_0 t) fullShare (Y 0) ∗ owns (c : Thread nD τ) (st0_1 t) fullShare (Y 1)
        ∗ owns (c : Thread nD τ) (st0_2 t) fullShare (Y 2))
      ⊢ wp frame (wpE (defs₀ (F := F)) Variants.none c none) Set.univ (bodyAt0 t) (fun _ =>
          iprop((rdat m c).Φ t.succ ∗ (rdat m c).owesAt () t.succ
            ∗ (∃ X, ⌜(rdat m c).after 0 t (Y 0) X⌝ ∗ owns (c : Thread nD τ) (st0_0 t) fullShare X)
            ∗ (∃ X, ⌜(rdat m c).after 1 t (Y 1) X⌝ ∗ owns (c : Thread nD τ) (st0_1 t) fullShare X)
            ∗ (∃ X, ⌜(rdat m c).after 2 t (Y 2) X⌝ ∗ owns (c : Thread nD τ) (st0_2 t) fullShare X))) := by
  rw [show (rdat m c).Φ t.succ = (rdat m c).Φ t.castSucc from rfl,
    show (rdat m c).owesAt () t.succ = (rdat m c).owesAt () t.castSucc from rfl]
  unfold bodyAt0
  by_cases h : t.val < 8
  · iintro ⟨HΦ, Ho, H0, H1, H2⟩
    iapply ((run_first c (grid0.coords t) _ _ _ _ _ _ ((hcond1 t).mpr h) (fun h' => absurd ((hcond2 t).mp h') (by omega))
      (512 * (t.val % 8)) (off1_eq t) (Y 0) (Y 1) (Y 2)) Set.univ _)
    isplitl [H0]; · iexact H0
    isplitl [H1]; · iexact H1
    isplitl [H2]; · iexact H2
    iintro ⟨H0, H1, ⟨%X, %hX, H2⟩⟩
    isplitl [HΦ]; · iexact HΦ
    isplitl [Ho]; · iexact Ho
    isplitl [H0]
    · iexists _; isplitr; · ipureintro; exact rfl
      iexact H0
    isplitl [H1]
    · iexists _; isplitr; · ipureintro; exact rfl
      iexact H1
    iexists X; isplitr; swap; · iexact H2
    ipureintro
    show Step m c t (Y 2) X
    exact ⟨fun _ => by rw [← h0, ← h1]; exact hX, fun h' => absurd h' (by omega)⟩
  · iintro ⟨HΦ, Ho, H0, H1, H2⟩
    iapply ((run_later c (grid0.coords t) _ _ _ _ _ _ (fun h' => h ((hcond1 t).mp h')) ((hcond2 t).mpr (by omega))
      (512 * (t.val % 8)) (off2_eq t) (Y 0) (Y 1) (Y 2)) Set.univ _)
    isplitl [H0]; · iexact H0
    isplitl [H1]; · iexact H1
    isplitl [H2]; · iexact H2
    iintro ⟨H0, H1, ⟨%X, %hX, H2⟩⟩
    isplitl [HΦ]; · iexact HΦ
    isplitl [Ho]; · iexact Ho
    isplitl [H0]
    · iexists _; isplitr; · ipureintro; exact rfl
      iexact H0
    isplitl [H1]
    · iexists _; isplitr; · ipureintro; exact rfl
      iexact H1
    iexists X; isplitr; swap; · iexact H2
    ipureintro
    show Step m c t (Y 2) X
    exact ⟨fun h' => absurd h' h, fun _ => by rw [← h0, ← h1]; exact hX⟩

/-- The pipeline's body obligation, at every point. -/
theorem body_obligation (c : Dev nD) : (rdat m c).BodyObligation (defs₀ (F := F)) Variants.none () Set.univ := fun t Y hY => by
  rw [bigSep_W0, bigSep_W0]
  exact sound_body m c t Y (finds0 m c t _ (hY 0)) (finds1 m c t _ (hY 1))

set_option backward.isDefEq.respectTransparency.types false in
/-- The run: every weakly fair execution of @main terminates; each array of the pipeline ends at contents the
    relation admits after the one write-back, every other buffer as launched. -/
theorem run_main : θ_run defs (onTc (τ := τ) (main (F := F))) (s₀ m ρ) (Pipeline.RDat.FramePost (cfgs 0) (fun c => rdat m c) (V m)) :=
  Pipeline.RDat.θ_run_frame cfgs (0 : Fin 1) launch0 defs₀ Variants.none (fun c => rdat m c) m ρ main
    (hbody := fun c => body_obligation m c) (hshare := fun c => (rdat m c).share_full fun _ => rfl)
    (howed := fun _ _ => rfl) (V := V m) (hmain := hmain m Variants.none) (hA := fun _ _ => rfl) (hΦ := fun _ _ => rfl)

/-- The frame: an input window's array is never written back, so the two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨Eq.mp (congrFun ((rdat m c).ArrAt_in 0 rfl _) _) ((h c).1 0), Eq.mp (congrFun ((rdat m c).ArrAt_in 1 rfl _) _) ((h c).1 1)⟩)
    (run_main m ρ)

end Cert.KernelIdeal.Accum

end
-- ==== Proof.LibMatmul.lean ====
/-
  A rank-2 matrix product read at an index, at the exact extended reals: when the dimension numbers contract the
  left operand's column axis with the right operand's row axis and keep the other two axes in order, the product
  accumulated into zeros is, at row `p` and column `q`, the sum over `k` of `lhs (p, k) · rhs (k, q)` — a sum over
  the contracted extent itself, not over the contraction's own index type.
-/
import Idealize.ShloMosaic.PureOps.Ideal.Laws
import Idealize.ShloMosaic.Lib.ValueIdx

noncomputable section

namespace Cert.LibMatmul

open Idealize.ShloMosaic Idealize.ShloMosaic.ValueIdx

/-- A product `[a, K] × [K, b] → [a, b]` into a zero accumulator, at an output index `j`: the four coordinate facts
    say which operand entries the dimension numbers pair at the contraction index (the left one at `(j 0, k)`, the
    right one at `(k, j 1)`); the contraction has one axis, of extent `K`, and the sum is re-indexed along it. -/
theorem matmul_zero_ix2 {a K b : Nat} {φ₁ φ₂ : FTy}
    (d : DotDims ⟨2, ![a, K]⟩ ⟨2, ![K, b]⟩ ⟨2, ![a, b]⟩) (prec : Option ContractPrecision)
    (hr : d.contr.rank = 1) (hs : d.contr.size ⟨0, by omega⟩ = K)
    (hl0 : ∀ j q, (d.lhsIdx j q 0).val = (j 0).val)
    (hl1 : ∀ j q, (d.lhsIdx j q 1).val = (q ⟨0, by omega⟩).val)
    (hr0 : ∀ j q, (d.rhsIdx j q 0).val = (q ⟨0, by omega⟩).val)
    (hr1 : ∀ j q, (d.rhsIdx j q 1).val = (j 1).val)
    (lhs : FVec Ideal ⟨2, ![a, K]⟩ φ₁) (rhs : FVec Ideal ⟨2, ![K, b]⟩ φ₂) (j : (⟨2, ![a, b]⟩ : Shape).Idx) :
    FloatOps.matmul d prec lhs rhs (constant ⟨2, ![a, b]⟩ .f32 0x00000000#32) j
      = ∑ k : Fin K, lhs (ix2 (j 0) k) * rhs (ix2 k (j 1)) := by
  rw [Ideal.matmul_constant_zero_apply, ← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k := funext fun x => Fin.ext (by
    match x with
    | ⟨0, _⟩ => exact hl0 _ _
    | ⟨1, _⟩ => exact (hl1 _ _).trans hk)
  have er : d.rhsIdx j ((contrEquiv1 d K hr hs).symm k) = ix2 k (j 1) := funext fun x => Fin.ext (by
    match x with
    | ⟨0, _⟩ => exact (hr0 _ _).trans hk
    | ⟨1, _⟩ => exact hr1 _ _)
  rw [el, er]
  rfl

end Cert.LibMatmul

end
-- ==== Proof.LibBlocks.lean ====
/-
  A sum over a range cut into equal blocks: the sum over `a · b` consecutive indices is the sum, block by block,
  of the sums over each block's `b` indices — index `t · b + p` being entry `p` of block `t`.
-/
import Mathlib.Algebra.BigOperators.Fin
import Mathlib.Logic.Equiv.Fin.Basic

namespace Cert.LibBlocks

open Finset

/-- The position of entry `p` of block `t` among `a` blocks of `b` entries. -/
theorem pos_lt {a b : ℕ} (t : Fin a) (p : Fin b) : t.val * b + p.val < a * b := by
  have ht := t.isLt
  have hp := p.isLt
  calc t.val * b + p.val < t.val * b + b := by omega
    _ = (t.val + 1) * b := (Nat.succ_mul t.val b).symm
    _ ≤ a * b := Nat.mul_le_mul_right b (by omega)

/-- A sum over `a · b` indices is the iterated sum over `a` blocks of `b` indices each. -/
theorem sum_blocks {M : Type*} [AddCommMonoid M] {a b : ℕ} (f : Fin (a * b) → M) :
    ∑ r : Fin (a * b), f r = ∑ t : Fin a, ∑ p : Fin b, f ⟨t.val * b + p.val, pos_lt t p⟩ := by
  rw [← Finset.sum_product', Finset.univ_product_univ]
  refine (Equiv.sum_comp (finProdFinEquiv (m := a) (n := b)) f).symm.trans ?_
  refine Finset.sum_congr rfl fun x _ => ?_
  refine congrArg f (Fin.ext ?_)
  show x.2.val + b * x.1.val = x.1.val * b + x.2.val
  rw [Nat.mul_comm]; omega

/-- The same at a literal total: a sum over `n` indices with `n = a · b`. -/
theorem sum_blocks_of_eq {M : Type*} [AddCommMonoid M] {n a b : ℕ} (h : n = a * b) (f : Fin n → M) :
    ∑ r : Fin n, f r = ∑ t : Fin a, ∑ p : Fin b, f ⟨t.val * b + p.val, h ▸ pos_lt t p⟩ := by
  subst h
  exact sum_blocks f

end Cert.LibBlocks
-- ==== Proof.IdealValue.lean ====
import proofs.«119019_g29180007809569_cont_9to1_395_21_alg».proof.Proof.IdealRun
import proofs.«119019_g29180007809569_cont_9to1_395_21_alg».proof.Proof.LibMatmul
import proofs.«119019_g29180007809569_cont_9to1_395_21_alg».proof.Proof.LibBlocks
import Idealize.ShloMosaic.Lib.ValueIdx
import Idealize.ShloMosaic.Lib.Pipeline.Value
import Idealize.ShloMosaic.PureOps.Ideal.Laws

set_option maxRecDepth 16384

noncomputable section

/-!
  What the kernel's result array holds after the run, over the extended reals.  The contraction axis of 4096 entries
  is cut into 8 chunks of 512.  Point `t = 8·k + i` of the grid adds chunk `k` of the product to the band of rows
  `512·i … 512·i + 511` (the first sweep, `k = 0`, overwrites the band instead).  So before point `t` an entry
  of band `i < t` holds the sum of the first `⌈(t − i) / 8⌉` chunks of its inner product, whatever the buffer held at
  the start; after the last point every entry holds all 8 chunks, which is the whole inner product because addition
  of extended reals is commutative and associative.  The buffer is then written back once, whole.
-/

namespace Cert.KernelIdeal.AccumValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal.Gen Cert.KernelIdeal.Accum Idealize.ShloMosaic.ValueIdx

/-- Entry `(row of y, j)` of the left matrix and entry `(j, column of y)` of the right one. -/
abbrev lhsAt (y : S4096x256.Idx) (j : Fin 4096) : S4096x4096.Idx := fun a => match a with
  | ⟨0, _⟩ => ⟨(y 0).val, (y 0).isLt⟩
  | ⟨1, _⟩ => ⟨j.val, j.isLt⟩
abbrev rhsAt (y : S4096x256.Idx) (j : Fin 4096) : S4096x256.Idx := fun a => match a with
  | ⟨0, _⟩ => ⟨j.val, j.isLt⟩
  | ⟨1, _⟩ => ⟨(y 1).val, (y 1).isLt⟩

section Pure

variable (A : Vec Ideal S4096x4096 .f32) (B : Vec Ideal S4096x256 .f32)

/-- The matrix product, entry by entry. -/
def product : Vec Ideal S4096x256 .f32 := fun y => ∑ j : Fin 4096, A (lhsAt y j) * B (rhsAt y j)

/-- Chunk `k` of an entry's inner product: the terms `512·k … 512·k + 511`. -/
def chunk (k : Fin 8) (y : S4096x256.Idx) : Elt Ideal .f32 :=
  ∑ j : Fin 512, A (lhsAt y ⟨k.val * 512 + j.val, LibBlocks.pos_lt k j⟩) * B (rhsAt y ⟨k.val * 512 + j.val, LibBlocks.pos_lt k j⟩)

/-- The same for any number (nothing beyond the eighth chunk). -/
def chunkN (k : Nat) (y : S4096x256.Idx) : Elt Ideal .f32 := if h : k < 8 then chunk A B ⟨k, h⟩ y else 0

/-- The eight chunks make the whole inner product. -/
theorem chunkN_of_lt (k : Nat) (h : k < 8) (y : S4096x256.Idx) : chunkN A B k y = chunk A B ⟨k, h⟩ y := by
  unfold chunkN; rw [dif_pos h]

theorem sum_chunks (y : S4096x256.Idx) : ∑ k ∈ Finset.range 8, chunkN A B k y = product A B y := by
  rw [Finset.sum_range]
  have e : ∀ k : Fin 8, chunkN A B k.val y = chunk A B k y := fun k => chunkN_of_lt A B k.val k.isLt y
  rw [Finset.sum_congr rfl fun k _ => e k]
  unfold chunk product
  exact (LibBlocks.sum_blocks_of_eq (n := 4096) (a := 8) (b := 512) rfl (fun r => A (lhsAt y r) * B (rhsAt y r))).symm

/-- Before point `n`: every entry of a band already visited holds the chunks added so far. -/
def Partial (n : Nat) (Y : Vec Ideal S4096x256 .f32) : Prop :=
  ∀ y : S4096x256.Idx, (y 0).val / 512 < n →
    Y y = ∑ k ∈ Finset.range ((n - (y 0).val / 512 + 7) / 8), chunkN A B k y

/-- One point: the band `t % 8` gets chunk `t / 8` (put in the first sweep, added later), the rest is kept. -/
theorem partial_step (t : Nat) (ht : t < 64) (Y X : Vec Ideal S4096x256 .f32) (hY : Partial A B t Y)
    (hin : ∀ y : S4096x256.Idx, (y 0).val / 512 = t % 8 →
      X y = if t < 8 then chunkN A B (t / 8) y else Y y + chunkN A B (t / 8) y)
    (hout : ∀ y : S4096x256.Idx, (y 0).val / 512 ≠ t % 8 → X y = Y y) : Partial A B (t + 1) X := by
  intro y hy
  have hy0 : (y 0).val < 4096 := idx2_lt0 y
  by_cases hb : (y 0).val / 512 = t % 8
  · rw [hin y hb]
    split
    · next h8 =>
      have e1 : (t + 1 - (y 0).val / 512 + 7) / 8 = 1 := by omega
      have e2 : t / 8 = 0 := by omega
      rw [e1, e2, Finset.sum_range_one]
    · next h8 =>
      have e1 : (t + 1 - (y 0).val / 512 + 7) / 8 = t / 8 + 1 := by omega
      have e2 : (t - (y 0).val / 512 + 7) / 8 = t / 8 := by omega
      rw [e1, Finset.sum_range_succ, hY y (by omega), e2]
  · have e1 : (t + 1 - (y 0).val / 512 + 7) / 8 = (t - (y 0).val / 512 + 7) / 8 := by omega
    rw [hout y hb, hY y (by omega), e1]

end Pure

section Run

variable (m : (ℓ : Loc nD τ sig) → Buf (Elt Ideal) ℓ)

/-- The index maps over the grid: point `t` reads block `(t % 8, t / 8)` of the left matrix and block `(t / 8, 0)`
    of the right one; the output block is always the whole array. -/
theorem index_facts : ∀ t : Fin cfg0.N, win0_0.index t (0 : Fin 2) = t.val % 8 ∧ win0_0.index t (1 : Fin 2) = t.val / 8
    ∧ win0_1.index t (0 : Fin 2) = t.val / 8 ∧ win0_1.index t (1 : Fin 2) = 0
    ∧ win0_2.index t (0 : Fin 2) = 0 ∧ win0_2.index t (1 : Fin 2) = 0 :=
  (by decide +kernel : ∀ t : Fin grid0.N, _)

/-- The output window is never fetched. -/
theorem fetch_out : ∀ t : Fin cfg0.N, (cfg0.win 2).fetch t = false :=
  (by decide +kernel : ∀ t : Fin grid0.N, win0_2.fetch t = false)

theorem lhs_0 (i : S512x256.Idx) (q : (dot_S512x512_S512x256_S512x256_1_0_0_1_n_n).contr.Idx) :
    ((dot_S512x512_S512x256_S512x256_1_0_0_1_n_n).lhsIdx i q 0).val = (i 0).val := by
  unfold DotDims.lhsIdx
  rw [dif_neg (show ¬(0 : Fin S512x512.rank) ∈ (dot_S512x512_S512x256_S512x256_1_0_0_1_n_n).lhsBatch by decide), dif_pos (show (0 : Fin S512x512.rank) ∈ (dot_S512x512_S512x256_S512x256_1_0_0_1_n_n).lhsNonContracting by decide)]
  rfl
theorem rhs_1 (i : S512x256.Idx) (q : (dot_S512x512_S512x256_S512x256_1_0_0_1_n_n).contr.Idx) :
    ((dot_S512x512_S512x256_S512x256_1_0_0_1_n_n).rhsIdx i q 1).val = (i 1).val := by
  unfold DotDims.rhsIdx
  rw [dif_neg (show ¬(1 : Fin S512x256.rank) ∈ (dot_S512x512_S512x256_S512x256_1_0_0_1_n_n).rhsBatch by decide), dif_pos (show (1 : Fin S512x256.rank) ∈ (dot_S512x512_S512x256_S512x256_1_0_0_1_n_n).rhsNonContracting by decide)]
  rfl

/-- The product of two blocks, entry by entry. -/
theorem pay1_ix (x0 : Vec Ideal S512x512 .f32) (x1 : Vec Ideal S512x256 .f32) (x : S512x256.Idx) :
    k0_pay1 x0 x1 x = ∑ j : Fin 512, x0 (ix2 (x 0) j) * x1 (ix2 j (x 1)) := by
  unfold k0_pay1
  exact LibMatmul.matmul_zero_ix2 dot_S512x512_S512x256_S512x256_1_0_0_1_n_n none rfl rfl lhs_0
    (fun i q => (dot_S512x512_S512x256_S512x256_1_0_0_1_n_n).lhsIdx_val_of_single rfl i q)
    (fun i q => (dot_S512x512_S512x256_S512x256_1_0_0_1_n_n).rhsIdx_val_of_single rfl i q) rhs_1 x0 x1 x

/-- The sum of what the band held and the product of the two blocks, entry by entry. -/
theorem pay2_ix (x0 : Vec Ideal S512x512 .f32) (x1 : Vec Ideal S512x256 .f32) (v : Vec Ideal S512x256 .f32) (x : S512x256.Idx) :
    k0_pay2 x0 x1 v x = v x + k0_pay1 x0 x1 x := by
  unfold k0_pay2
  show addf (shapeCast S512x256 v shapeCasts_S512x256_S512x256) (k0_pay1 x0 x1) x = _
  rw [addf_apply, shapeCast_self]

/-- At point `t` the product of the two blocks is, at the band's entry `y`, chunk `t / 8` of `y`'s inner product. -/
theorem pay1_chunk (c : Dev nD) (t : Fin cfg0.N) (x : S512x256.Idx) (y : S4096x256.Idx)
    (h0 : (y 0).val = 512 * (t.val % 8) + (x 0).val) (h1 : (y 1).val = (x 1).val) :
    k0_pay1 (iblk m c 0 t) (iblk m c 1 t) x = chunkN (V m c main_arg0) (V m c main_arg1) (t.val / 8) y := by
  have hN : t.val < 64 := lt_of_lt_of_eq t.isLt (show cfg0.N = 64 from N_0)
  obtain ⟨f0, f1, f2, f3, -, -⟩ := index_facts t
  refine (pay1_ix (iblk m c 0 t) (iblk m c 1 t) x).trans ?_
  rw [chunkN_of_lt _ _ _ (show t.val / 8 < 8 by omega)]
  unfold chunk
  refine Finset.sum_congr rfl fun j _ => ?_
  have hj : j.val < 512 := j.isLt
  have eL : iblk m c 0 t (ix2 (x 0) j) = V m c main_arg0 (lhsAt y ⟨t.val / 8 * 512 + j.val, by omega⟩) := by
    show V m c main_arg0 (((cfg0.win 0).blk t).view.emb (ix2 (x 0) j)) = _
    refine congrArg _ (funext fun a => Fin.ext ?_)
    match a with
    | ⟨0, _⟩ => show win0_0.index t (0 : Fin 2) * 512 + 1 * (x 0).val = (y 0).val; omega
    | ⟨1, _⟩ => show win0_0.index t (1 : Fin 2) * 512 + 1 * j.val = t.val / 8 * 512 + j.val; omega
  have eR : iblk m c 1 t (ix2 j (x 1)) = V m c main_arg1 (rhsAt y ⟨t.val / 8 * 512 + j.val, by omega⟩) := by
    show V m c main_arg1 (((cfg0.win 1).blk t).view.emb (ix2 j (x 1))) = _
    refine congrArg _ (funext fun a => Fin.ext ?_)
    match a with
    | ⟨0, _⟩ => show win0_1.index t (0 : Fin 2) * 512 + 1 * j.val = t.val / 8 * 512 + j.val; omega
    | ⟨1, _⟩ => show win0_1.index t (1 : Fin 2) * 256 + 1 * (x 1).val = (y 1).val; omega
  rw [eL, eR]

/-- One point carries the partial sums on. -/
theorem partial_of_step (c : Dev nD) (t : Fin cfg0.N) (Y X : Vec Ideal S4096x256 .f32)
    (hY : Partial (V m c main_arg0) (V m c main_arg1) t.val Y) (hS : Step m c t Y X) :
    Partial (V m c main_arg0) (V m c main_arg1) (t.val + 1) X := by
  have hN : t.val < 64 := lt_of_lt_of_eq t.isLt (show cfg0.N = 64 from N_0)
  refine partial_step _ _ t.val hN Y X hY (fun y hb => ?_) (fun y hb => ?_)
  · have hy0 : (y 0).val < 4096 := idx2_lt0 y
    have hy1 : (y 1).val < 256 := idx2_lt1 y
    let x : S512x256.Idx := ix2 (⟨(y 0).val - 512 * (t.val % 8), by omega⟩ : Fin 512) (⟨(y 1).val, hy1⟩ : Fin 256)
    have h0 : (y 0).val = 512 * (t.val % 8) + (x 0).val := by
      show (y 0).val = 512 * (t.val % 8) + ((y 0).val - 512 * (t.val % 8)); omega
    have h1 : (y 1).val = (x 1).val := rfl
    by_cases h8 : t.val < 8
    · rw [if_pos h8, ((hS.1 h8).1 y x h0 h1)]
      exact pay1_chunk m c t x y h0 h1
    · obtain ⟨v, hv, hX⟩ := hS.2 (by omega)
      rw [if_neg h8, hX.1 y x h0 h1, pay2_ix, hv y x h0 h1, pay1_chunk m c t x y h0 h1]
  · have hy0 : (y 0).val < 4096 := idx2_lt0 y
    have hr : (y 0).val < 512 * (t.val % 8) ∨ 512 * (t.val % 8) + 512 ≤ (y 0).val := by omega
    by_cases h8 : t.val < 8
    · exact (hS.1 h8).2 y hr
    · obtain ⟨v, hv, hX⟩ := hS.2 (by omega)
      exact hX.2 y hr

/-- Whatever the output buffer may hold when point `t` starts carries the partial sums of the points before. -/
theorem partial_of_finds (c : Dev nD) : ∀ (t : Fin cfg0.N) (Y : Vec Ideal S4096x256 .f32),
    (rdat m c).Finds 2 t Y → Partial (V m c main_arg0) (V m c main_arg1) t.val Y := by
  intro t
  induction hn : t.val using Nat.strong_induction_on generalizing t with
  | _ n ih =>
    subst hn; intro Y hY
    have hN : t.val < 64 := lt_of_lt_of_eq t.isLt (show cfg0.N = 64 from N_0)
    by_cases ht : t.val = 0
    · intro y hy; rw [ht] at hy; exact absurd hy (Nat.not_lt_zero _)
    · rcases ((rdat m c).finds_of_pos (fetch_out t) ht Y).mp hY with hfl | ⟨Y', hY', hS⟩
      · have := (flush0_2 _).mp hfl
        have e : (⟨t.val - 1, Nat.lt_of_le_of_lt (Nat.sub_le _ _) t.isLt⟩ : Fin cfg0.N).val = t.val - 1 := rfl
        omega
      · have hp := ih (t.val - 1) (by omega) ⟨t.val - 1, Nat.lt_of_le_of_lt (Nat.sub_le _ _) t.isLt⟩ rfl Y' hY'
        have hs : Step m c ⟨t.val - 1, Nat.lt_of_le_of_lt (Nat.sub_le _ _) t.isLt⟩ Y' Y := hS
        have := partial_of_step m c _ Y' Y hp hs
        have e : (⟨t.val - 1, Nat.lt_of_le_of_lt (Nat.sub_le _ _) t.isLt⟩ : Fin cfg0.N).val + 1 = t.val := by
          show t.val - 1 + 1 = t.val; omega
        rw [e] at this; exact this

/-- The last point's index. -/
abbrev tLast : Fin cfg0.N := ⟨63, by decide⟩

/-- THE RESULT ARRAY after the run is the matrix product of the two argument arrays. -/
theorem final (c : Dev nD) (Fb : Buf (Elt Ideal) ((cfg0.win 2).arr.view.loc (c.tc : Thread nD τ)))
    (h : (rdat m c).ArrAt 2 64 Fb) : Fb = product (V m c main_arg0) (V m c main_arg1) := by
  have e := (rdat m c).ArrAt_succ 2 tLast
  rw [if_pos ((flush0_2 tLast).mpr rfl)] at e
  have h' : (rdat m c).ArrStep 2 tLast ((rdat m c).ArrAt 2 tLast.val) Fb := by rw [← e]; exact h
  obtain ⟨G₀, X, -, ⟨Y, hF, hS⟩, rfl⟩ := h'
  have hp := partial_of_step m c tLast Y X (partial_of_finds m c tLast Y hF) hS
  have hX : X = product (V m c main_arg0) (V m c main_arg1) := funext fun y => by
    have hy0 : (y 0).val < 4096 := idx2_lt0 y
    have e8 : (tLast.val + 1 - (y 0).val / 512 + 7) / 8 = 8 := by show (63 + 1 - (y 0).val / 512 + 7) / 8 = 8; omega
    rw [hp y (by show (y 0).val / 512 < 63 + 1; omega), e8]
    exact sum_chunks _ _ y
  obtain ⟨-, -, -, -, f4, f5⟩ := index_facts tLast
  have hcut : (cfg0.win 2).cut (grid0.coords tLast) X
      = ((cfg0.win 2).blk tLast).view.read (Elt Ideal) (product (V m c main_arg0) (V m c main_arg1)) := by
    rw [hX]
    funext j
    show product (V m c main_arg0) (V m c main_arg1) j = product (V m c main_arg0) (V m c main_arg1) (((cfg0.win 2).blk tLast).view.emb j)
    refine congrArg _ (funext fun a => Fin.ext ?_)
    match a with
    | ⟨0, _⟩ => show (j 0).val = win0_2.index tLast (0 : Fin 2) * 4096 + 1 * (j 0).val; omega
    | ⟨1, _⟩ => show (j 1).val = win0_2.index tLast (1 : Fin 2) * 256 + 1 * (j 1).val; omega
  rw [hcut, View.write_read_eq_piecewise]
  funext i
  refine Finset.piecewise_eq_of_mem _ _ _ ?_
  rw [View.setOn_univ]
  show i ∈ ((View.whole main_v0).slice (win0_2.rect tLast)).set
  rw [View.set_slice_whole, Rect.mem_set_unit]
  have hi0 : (i 0).val < 4096 := idx2_lt0 i
  have hi1 : (i 1).val < 256 := idx2_lt1 i
  intro a
  match a with
  | ⟨0, _⟩ => show win0_2.index tLast (0 : Fin 2) * 4096 ≤ (i 0).val ∧ (i 0).val < win0_2.index tLast (0 : Fin 2) * 4096 + 4096; omega
  | ⟨1, _⟩ => show win0_2.index tLast (1 : Fin 2) * 256 ≤ (i 1).val ∧ (i 1).val < win0_2.index tLast (1 : Fin 2) * 256 + 256; omega

end Run

end Cert.KernelIdeal.AccumValue

end
-- ==== Proof.RefValue.lean ====
import proofs.«119019_g29180007809569_cont_9to1_395_21_alg».proof.Proof.Gen.ReferenceIdeal.Read
import proofs.«119019_g29180007809569_cont_9to1_395_21_alg».proof.Proof.IdealValue

set_option maxRecDepth 16384

noncomputable section

/-!
  The reference is one matrix product on the host: over the extended reals its entry `(r, d)` is the sum over all 4096
  values `j` of the contraction index of `A (r, j) · B (j, d)` — the function the kernel's result array was shown to hold.
-/

namespace Cert.ReferenceIdeal.RefValue

open Idealize.ShloMosaic Idealize.ShloMosaic.TcCoe Idealize.SL.Sem

/-- The reference's result, as a function of its two argument arrays, is the matrix product entry by entry. -/
theorem result_eq (x0 : (⟨Cert.ReferenceIdeal.S4096x4096, .f32⟩ : BufTy).Contents (Elt Ideal))
    (x1 : (⟨Cert.ReferenceIdeal.S4096x256, .f32⟩ : BufTy).Contents (Elt Ideal)) :
    Cert.ReferenceIdeal.Read.val_main_v0 (F := Ideal) x0 x1 = Cert.KernelIdeal.AccumValue.product x0 x1 := by
  funext i
  rw [Cert.ReferenceIdeal.Read.val_main_v0_apply]
  rfl

end Cert.ReferenceIdeal.RefValue

end
-- ==== Proof.lean ====
/-
  The kernel computes `adj · embeds` for a 4096 × 4096 matrix and a 4096 × 256 matrix on a grid of 8 × 8 points:
  point `(k, i)` multiplies block `(i, k)` of the left matrix (512 × 512) by block `k` of the right one (512 × 256)
  and puts the product into rows `512·i … 512·i + 511` of the result, which stays resident for the whole run — the
  band is overwritten when `k = 0` and added to when `k > 0` — and is written back once, after the last point.  The
  reference is one matrix product.

  Over the extended reals a block product is the sum over the block's 512 contraction indices, so after the last
  point an entry holds `((c₀ + c₁) + …) + c₇`, the sum of the 8 chunks of its inner product, and that is the whole sum
  over 4096 indices: only commutativity and associativity of addition are used, so nothing is asked of the inputs.

  Both printed kernels (the word-level one and its idealization, which are the same text: the idealization rewrote
  nothing) get their frame from one run of the pipeline whose proof data say, per point, how the resident buffer
  changes relative to what the point found (WordPoint / WordRun and IdealPoint / IdealRun, the same text at the two
  instances); IdealValue reads the result array off that run at the extended reals; RefValue reads the reference.
-/
import proofs.«119019_g29180007809569_cont_9to1_395_21_alg».proof.Defs
import proofs.«119019_g29180007809569_cont_9to1_395_21_alg».proof.Proof.Gen.Kernel
import proofs.«119019_g29180007809569_cont_9to1_395_21_alg».proof.Proof.Gen.KernelIdeal
import proofs.«119019_g29180007809569_cont_9to1_395_21_alg».proof.Proof.Gen.ReferenceIdeal
import proofs.«119019_g29180007809569_cont_9to1_395_21_alg».proof.Proof.Gen.Pre_finite_inputs
import proofs.«119019_g29180007809569_cont_9to1_395_21_alg».proof.Proof.Gen.ReferenceIdeal.Run
import proofs.«119019_g29180007809569_cont_9to1_395_21_alg».proof.Proof.WordRun
import proofs.«119019_g29180007809569_cont_9to1_395_21_alg».proof.Proof.IdealRun
import proofs.«119019_g29180007809569_cont_9to1_395_21_alg».proof.Proof.IdealValue
import proofs.«119019_g29180007809569_cont_9to1_395_21_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its two argument arrays as they were. -/
theorem frame_k : Cert.frame_Kernel := fun m ρ _ => Cert.Kernel.Accum.frame m ρ

/-- So does its idealization. -/
theorem frame_ki : Cert.frame_KernelIdeal := fun m ρ _ => Cert.KernelIdeal.Accum.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Over the extended reals both programs end with the matrix product of their (agreeing) arguments. -/
theorem algebraic : Cert.algebraic_KernelIdeal_ReferenceIdeal := by
  intro m ρ m' ρ' _ hagree
  refine ⟨fun c => Cert.KernelIdeal.AccumValue.product
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), ?_, ?_⟩
  · exact (θ_run Cert.KernelIdeal.defs _ _).mono (fun r h c =>
      ⟨Cert.KernelIdeal.AccumValue.final m c _ ((h c).1 2),
        Eq.mp (congrFun ((Cert.KernelIdeal.Accum.rdat m c).ArrAt_in 0 rfl _) _) ((h c).1 0),
        Eq.mp (congrFun ((Cert.KernelIdeal.Accum.rdat m c).ArrAt_in 1 rfl _) _) ((h c).1 1)⟩)
      (Cert.KernelIdeal.Accum.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v0_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
